-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x1 : Shape := ⟨2, ![5000, 1]⟩

abbrev nBuf : Space → Nat
  | .hbm => 34
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S100000x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S100000x1, .f32⟩
  | .hbm, ⟨33, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_cst : Ref sig .tc := ⟨.hbm, 55, rfl⟩
abbrev main_call0_v0 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.ResultRun.lean ====
/-
  The kernel program's run with its RESULT named.

  @main of the kernel program is three segments: the first pipelined region (the linear projection), a stretch of
  host operations (the gather and the two scatter-adds), and the second pipelined region (mean, batch norm, ReLU).
  The library's launch theorem for a list of segments gives, for every weakly fair execution, the contents of
  every unscoped buffer at the last boundary of the fold through @main.  Read at the argument buffers this is
  the frame claim; read ALSO at the result buffer it says that the result array ends holding what the second
  region's write-backs leave in its output window's array, `(dat1 (V2 m ρ) c).arrAt 6 cfg1.N`, where `V2` is
  the memory as the second region finds it.  That array is computed from the blocks in the sibling modules.
-/
import proofs.«140561_j61838939128218_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array of the second region's output window (window 6). -/
theorem result_at_exit (c : Dev nD) :
    W3 m ρ c (Proc.devRef .tc main_v20) = (dat1 (V2 m ρ) c).arrAt 6 cfg1.N := W3_arr m ρ c 6

set_option backward.isDefEq.respectTransparency.types false in
/-- Every weakly fair execution of @main terminates without a fault; the result array ends holding what the second
    region's write-backs leave in the array of its output window, and the argument arrays end as launched. -/
theorem run_result : θ_run defs (onTc (τ := τ) (main (F := F))) ⟨m, fun _ => 0, ρ⟩ (fun r => ∀ c : Dev nD,
      r.2.mem ((c.tc : Thread nD τ).loc main_v20) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v20 (by decide))).trans (result_at_exit m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.Result

end
-- ==== Proof.LinearBlock.lean ====
/-
  One block of the linear projection, read at an index.

  The first kernel's body loads a block `x` of 5000 rows of the node features, the whole weight matrix `W` and the
  bias `b`, and stores `x · W + b` (the matrix product on the matrix unit into a zero accumulator, both
  operands first narrowed to bf16, which on the extended reals changes nothing).  At row `p`, column `q` of the
  block this is `(∑ k, x[p, k] * W[k, q]) + b[q]`.
-/
import proofs.«140561_j61838939128218_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LinearBlock

open Idealize.ShloMosaic Idealize.ShloMosaic.ValueIdx Cert.KernelIdeal Cert.KernelIdeal.Gen
open scoped BigOperators

local notation "dotD" => dot_S5000x128_S128x128_S5000x128_1_0_0_1_n_n

/-- The left operand's index at output index `j` and contraction index `q`: row `j 0`, column `q`. -/
theorem lhs_row (j : S5000x128.Idx) (q : (dotD).contr.Idx) : ((dotD).lhsIdx j q 0).val = (j 0).val := by
  unfold DotDims.lhsIdx
  rw [dif_neg (show ¬(0 : Fin S5000x128.rank) ∈ (dotD).lhsBatch by decide), dif_pos (show (0 : Fin S5000x128.rank) ∈ (dotD).lhsNonContracting by decide)]
  rfl
theorem lhs_col (j : S5000x128.Idx) (q : (dotD).contr.Idx) : ((dotD).lhsIdx j q 1).val = (q ⟨0, by decide⟩).val :=
  (dotD).lhsIdx_val_of_single rfl j q
/-- The right operand's index: row `q`, column `j 1`. -/
theorem rhs_row (j : S5000x128.Idx) (q : (dotD).contr.Idx) : ((dotD).rhsIdx j q 0).val = (q ⟨0, by decide⟩).val :=
  (dotD).rhsIdx_val_of_single rfl j q
theorem rhs_col (j : S5000x128.Idx) (q : (dotD).contr.Idx) : ((dotD).rhsIdx j q 1).val = (j 1).val := by
  unfold DotDims.rhsIdx
  rw [dif_neg (show ¬(1 : Fin S128x128.rank) ∈ (dotD).rhsBatch by decide), dif_pos (show (1 : Fin S128x128.rank) ∈ (dotD).rhsNonContracting by decide)]
  rfl

/-- The matrix product into the zero accumulator, at row `p` and column `q`: the sum over the 128 shared
    coordinates of the products. -/
theorem matmul_at (x : FVec Ideal S5000x128 .bf16) (W : FVec Ideal S128x128 .bf16) (p : Fin 5000) (q : Fin 128) :
    FloatOps.matmul (F := Ideal) dotD none x W (constant S5000x128 .f32 0x00000000#32) (ix2 p q)
      = ∑ k : Fin 128, x (ix2 p k) * W (ix2 k q) := by
  refine (Ideal.matmul_constant_zero_apply dotD none x W (ix2 p q)).trans ?_
  rw [← Equiv.sum_comp (ValueIdx.contrEquiv1 dotD 128 rfl rfl).symm]
  refine Finset.sum_congr rfl fun k _ => ?_
  have hk := ValueIdx.contrEquiv1_symm_val dotD 128 rfl rfl k
  have el : (dotD).lhsIdx (ix2 p q) ((ValueIdx.contrEquiv1 dotD 128 rfl rfl).symm k) = ix2 p k := funext fun a => Fin.ext (by
    match a with
    | ⟨0, _⟩ => exact lhs_row _ _
    | ⟨1, _⟩ => exact (lhs_col _ _).trans hk)
  have er : (dotD).rhsIdx (ix2 p q) ((ValueIdx.contrEquiv1 dotD 128 rfl rfl).symm k) = ix2 k q := funext fun a => Fin.ext (by
    match a with
    | ⟨0, _⟩ => exact (rhs_row _ _).trans hk
    | ⟨1, _⟩ => exact rhs_col _ _)
  rw [el, er]

/-- The bias, a vector of 128 entries, made a row and repeated over the 5000 rows: at `(p, q)` it is `b[q]`. -/
theorem bias_at (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- THE BLOCK: what the first kernel stores, at row `p` and column `q`. -/
theorem pay_at (x : Vec Ideal S5000x128 .f32) (W : Vec Ideal S128x128 .f32) (b : Vec Ideal S128 .f32) (p : Fin 5000) (q : Fin 128) :
    k0_pay1 (F := Ideal) x W b (ix2 p q) = (∑ k : Fin 128, x (ix2 p k) * W (ix2 k q)) + b (ix1 q) := by
  unfold k0_pay1
  exact congrArg₂ (· + ·) (matmul_at (truncf .bf16 x bitsLt_bf16_f32) (truncf .bf16 W bitsLt_bf16_f32) p q) (bias_at b p q)

end Cert.KernelIdeal.LinearBlock

end
-- ==== Proof.Spec.lean ====
/-
  The specification: the layer as two whole-array functions on the extended reals.

  `linear x W b` is the projection `x · W + b` of the node features: at node `r`, channel `c` it is
  `(∑ k, x[r, k] * W[k, c]) + b[c]`.

  `bnTail sums cnt gamma beta mean var` is the layer's tail: at node `r`, channel `c` it is the pointwise formula
  `bnPoint` of the summed messages `sums[r, c]`, the edge count `cnt[r]` and the channel-`c` entries of the four
  batch-norm vectors: the mean message `sums / max(cnt, 1)`, normalised by
  `(· - mean) * (rsqrt(var + ε) * gamma) + beta`, clamped below at zero.  The three float literals are kept as
  their binary words (1, ε = f32(1e-5), 0): the same words occur on both sides of the claim, so their values never
  matter.

  What lies between the two — gathering the projected features along the edges' sources and adding them up at
  the edges' targets — is the same chain of host operations in both programs and is never opened.
-/
import Idealize.ShloMosaic.PureOps.Ideal
import Idealize.ShloMosaic.Lib.ValueIdx

noncomputable section

namespace Cert.GcnSpec

open Idealize.ShloMosaic Idealize.ShloMosaic.ValueIdx
open scoped BigOperators

/-- Mean aggregation, batch norm with running statistics, ReLU: at one node and one channel. -/
def bnPoint (s cnt mean var gamma beta : EReal) : EReal :=
  max ((Ideal.div s (max cnt (Ideal.ofBits .f32 0x3F800000#32)) - mean)
        * (Ideal.rsqrt (var + Ideal.ofBits .f32 0x3727C5AC#32) * gamma) + beta)
    (Ideal.ofBits .f32 0x00000000#32)

/-- The projection at node `r` and channel `c`. -/
def linearAt (x : (⟨2, ![100000, 128]⟩ : Shape).Idx → EReal) (W : (⟨2, ![128, 128]⟩ : Shape).Idx → EReal)
    (b : (⟨1, ![128]⟩ : Shape).Idx → EReal) (r : Fin 100000) (c : Fin 128) : EReal :=
  (∑ k : Fin 128, x (ix2 r k) * W (ix2 k c)) + b (ix1 c)

/-- The projection `x · W + b` as one array. -/
def linear (x : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => linearAt x W b ⟨(i 0).val, idx2_lt0 i⟩ ⟨(i 1).val, idx2_lt1 i⟩

/-- The tail at node `r` and channel `c`. -/
def bnTailAt (sums : (⟨2, ![100000, 128]⟩ : Shape).Idx → EReal) (cnt : (⟨1, ![100000]⟩ : Shape).Idx → EReal)
    (gamma beta mean var : (⟨1, ![128]⟩ : Shape).Idx → EReal) (r : Fin 100000) (c : Fin 128) : EReal :=
  bnPoint (sums (ix2 r c)) (cnt (ix1 r)) (mean (ix1 c)) (var (ix1 c)) (gamma (ix1 c)) (beta (ix1 c))

/-- The tail as one array. -/
def bnTail (sums : (⟨2, ![100000, 128]⟩ : Shape).Idx → EReal) (cnt : (⟨1, ![100000]⟩ : Shape).Idx → EReal)
    (gamma beta mean var : (⟨1, ![128]⟩ : Shape).Idx → EReal) : (⟨2, ![100000, 128]⟩ : Shape).Idx → EReal :=
  fun i => bnTailAt sums cnt gamma beta mean var ⟨(i 0).val, idx2_lt0 i⟩ ⟨(i 1).val, idx2_lt1 i⟩

end Cert.GcnSpec

end
-- ==== Proof.LinearArray.lean ====
/-
  The first region's output array: the projection `x · W + b` of whatever the region finds in its input arrays.

  The grid has 20 points.  At point `t` the pipeline fetches rows `5000 t … 5000 t + 4999` of the features, the
  whole weight matrix and the whole bias, and writes back rows `5000 t … 5000 t + 4999` of the output.  What the body
  leaves in the output block is, entry by entry, the projection at the array index the entry is written back to;
  the 20 blocks tile the 100000 rows; so the array ends holding the projection everywhere.
-/
import proofs.«140561_j61838939128218_1_alg».proof.Proof.Gen.KernelIdeal.Frame
import proofs.«140561_j61838939128218_1_alg».proof.Proof.LinearBlock
import proofs.«140561_j61838939128218_1_alg».proof.Proof.Spec
import Idealize.ShloMosaic.Lib.Pipeline.Value

set_option maxRecDepth 16384

noncomputable section

namespace Cert.KernelIdeal.LinearArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec
open scoped BigOperators

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps, decided over the grid: the feature and output windows are at block row `t`, block
    column 0; the weight and bias windows stay at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- A block of the body's result is a block of the projection: if the feature block `x` is rows
    `5000 T …` of the array `X`, and the weight and bias blocks are the whole arrays, then the stored entry `j` is
    the projection at the array index `i` that sits `5000 T` rows below `j`. -/
theorem block_is_linear (X : S100000x128.Idx → EReal) (Wm : S128x128.Idx → EReal) (bv : S128.Idx → EReal)
    (x : Vec Ideal S5000x128 .f32) (W' : Vec Ideal S128x128 .f32) (b' : Vec Ideal S128 .f32) (T : ℕ)
    (hx : ∀ (p : Fin 5000) (k : Fin 128) (i : S100000x128.Idx), (i 0).val = T * 5000 + p.val → (i 1).val = k.val → x (ix2 p k) = X i)
    (hW : ∀ y, W' y = Wm y) (hb : ∀ y, b' y = bv y)
    (j : S5000x128.Idx) (i : S100000x128.Idx) (hi0 : (i 0).val = T * 5000 + (j 0).val) (hi1 : (i 1).val = (j 1).val) :
    k0_pay1 (F := Ideal) x W' b' j = linear X Wm bv i := by
  obtain ⟨p, q, rfl⟩ : ∃ (p : Fin 5000) (q : Fin 128), j = ix2 p q := ⟨j 0, j 1, eq_ix2 j⟩
  have hr : (⟨(i 0).val, idx2_lt0 i⟩ : Fin 100000).val = T * 5000 + p.val := hi0
  have hq : (⟨(i 1).val, idx2_lt1 i⟩ : Fin 128) = q := Fin.ext hi1
  rw [LinearBlock.pay_at]
  unfold linear linearAt
  rw [hq]
  exact congrArg₂ (· + ·) (Finset.sum_congr rfl fun k _ => congrArg₂ (· * ·) (hx p k _ hr rfl) (hW _)) (hb _)

/-- WHAT POINT `t` WRITES BACK is block `t` of the projection of the arrays as the region finds them. -/
theorem flushed_linear (c : Dev nD) (t : Fin cfg0.N) :
    (dat0 V c).flushed 3 t
      = ((cfg0.win 3).blk t).view.read (Elt Ideal) (linear (V c main_arg0) (V c main_arg2) (V c main_arg3)) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x128) zero2, View.ld_unit_zero (S := S128) zero1]
  obtain ⟨e00, e01, e10, e11, e2, e30, e31⟩ := index_facts t
  funext j
  show k0_pay1 (iblk0 V c 0 t) (iblk0 V c 1 t) (iblk0 V c 2 t) j
    = linear (V c main_arg0) (V c main_arg2) (V c main_arg3) (((cfg0.win 3).blk t).view.emb j)
  refine block_is_linear (V c main_arg0) (V c main_arg2) (V c main_arg3) (iblk0 V c 0 t) (iblk0 V c 1 t) (iblk0 V c 2 t) t.val ?_ ?_ ?_ j _ ?_ ?_
  · intro p k i h0 h1
    show V c main_arg0 (((cfg0.win 0).blk t).view.emb (ix2 p k)) = V c main_arg0 i
    refine congrArg (V c main_arg0) (funext fun a => Fin.ext ?_)
    match a with
    | ⟨0, _⟩ => show win0_0.index t (0 : Fin 2) * 5000 + 1 * p.val = (i 0).val; omega
    | ⟨1, _⟩ => show win0_0.index t (1 : Fin 2) * 128 + 1 * k.val = (i 1).val; omega
  · intro y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · intro y
    show V c main_arg3 (((cfg0.win 2).blk t).view.emb y) = V c main_arg3 y
    refine congrArg (V c main_arg3) (funext fun a => Fin.ext ?_)
    match a with
    | ⟨0, _⟩ => show win0_2.index t (0 : Fin 1) * 128 + 1 * (y 0).val = (y 0).val; omega
  · show win0_3.index t (0 : Fin 2) * 5000 + 1 * (j 0).val = t.val * 5000 + (j 0).val; omega
  · show win0_3.index t (1 : Fin 2) * 128 + 1 * (j 1).val = (j 1).val; omega

/-- An index of the output array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- The 20 blocks cover the array: row `r` is in the block of point `r / 5000`. -/
theorem covered (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  have ht : (i 0).val / 5000 < cfg0.N := by show (i 0).val / 5000 < 20; omega
  refine ⟨⟨(i 0).val / 5000, ht⟩, flush0_3 _, ?_⟩
  rw [mem_block]
  obtain ⟨-, -, -, -, -, e30, e31⟩ := index_facts ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e31]; omega

/-- THE ARRAY after the region: the projection of the feature, weight and bias arrays as the region finds them. -/
theorem linear_array (c : Dev nD) :
    (dat0 V c).arrAt 3 cfg0.N = linear (V c main_arg0) (V c main_arg2) (V c main_arg3) :=
  (dat0 V c).arrAt_eq_of_cover 3 _ (fun t _ => flushed_linear V c t) (covered)

end Cert.KernelIdeal.LinearArray

end
-- ==== Proof.BnBlock.lean ====
/-
  One block of the second kernel, read at an index.

  The body loads a block of 5000 rows of the summed messages `sums`, the matching 5000 edge counts `cnt` (a
  column), and the four per-channel vectors, and stores, at row `p` and column `q`, the pointwise formula
  `bnPoint` of `sums[p, q]`, `cnt[p]` and the channel-`q` entries of the four vectors.  Everything in the body
  is pointwise except the layout steps: a vector of 128 entries made a row and repeated down the rows, and the
  count column repeated across the columns.
-/
import proofs.«140561_j61838939128218_1_alg».proof.Proof.Gen.KernelIdeal.Skeleton
import proofs.«140561_j61838939128218_1_alg».proof.Proof.Spec
import Idealize.ShloMosaic.Lib.ValueIdx
import Idealize.ShloMosaic.Lib.ValueLayout
import Idealize.ShloMosaic.Lib.Pipeline.Value

noncomputable section

namespace Cert.KernelIdeal.BnBlock

open Idealize.ShloMosaic Idealize.ShloMosaic.ValueIdx Cert.KernelIdeal Cert.KernelIdeal.Gen Cert.GcnSpec

/-- A column `[a, 1]` repeated across `b` columns reads, at `(p, c)`, the column's entry of row `p`. -/
theorem column_repeated {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector of 128 entries made a row and repeated down the 5000 rows reads, at `(p, q)`, its entry `q`. -/
theorem row_repeated (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ broadcasts_S1x128_S5000x128 p q).trans (shapeCast_a_1a_apply v shapeCasts_S128_S1x128 0 q)

/-- The normalising factor `rsqrt(var + ε) * gamma`, computed on a row and repeated down the rows. -/
theorem scale_repeated (var gamma : FVec Ideal S128 .f32) (p : Fin 5000) (q : Fin 128) :
    broadcastTo S5000x128 (mulf (rsqrt (addf (shapeCast S1x128 var shapeCasts_S128_S1x128) (broadcast S1x128 (Scalar.ofBits (F := Ideal) .f32 0x3727C5AC#32))))
        (shapeCast S1x128 gamma shapeCasts_S128_S1x128)) broadcasts_S1x128_S5000x128 (ix2 p q)
      = Ideal.rsqrt (var (ix1 q) + Ideal.ofBits .f32 0x3727C5AC#32) * gamma (ix1 q) := by
  refine (broadcastTo_1b_ab_apply _ broadcasts_S1x128_S5000x128 p q).trans ?_
  exact congrArg₂ (· * ·)
    (congrArg (fun z => Ideal.rsqrt (z + Ideal.ofBits .f32 0x3727C5AC#32)) (shapeCast_a_1a_apply var shapeCasts_S128_S1x128 0 q))
    (shapeCast_a_1a_apply gamma shapeCasts_S128_S1x128 0 q)

/-- The clamped count column repeated across the columns. -/
theorem count_repeated (cnt : FVec Ideal S5000x1 .f32) (p : Fin 5000) (q : Fin 128) :
    broadcastTo S5000x128 (maximumf (shapeCast S5000x1 cnt shapeCasts_S5000x1_S5000x1) (broadcast S5000x1 (Scalar.ofBits (F := Ideal) .f32 0x3F800000#32)))
        broadcasts_S5000x1_S5000x128 (ix2 p q)
      = max (cnt (ix2 p (0 : Fin 1))) (Ideal.ofBits .f32 0x3F800000#32) := by
  refine (column_repeated _ broadcasts_S5000x1_S5000x128 p q).trans ?_
  exact congrArg (fun z => max z (Ideal.ofBits .f32 0x3F800000#32)) (congrFun (shapeCast_self cnt shapeCasts_S5000x1_S5000x1) _)

/-- THE BLOCK: what the second kernel stores, at row `p` and column `q`. -/
theorem pay_at (cnt : Vec Ideal S5000x1 .f32) (sums : Vec Ideal S5000x128 .f32) (var mean gamma beta : Vec Ideal S128 .f32)
    (p : Fin 5000) (q : Fin 128) :
    k1_pay1 (F := Ideal) cnt sums var mean gamma beta (ix2 p q)
      = bnPoint (sums (ix2 p q)) (cnt (ix2 p (0 : Fin 1))) (mean (ix1 q)) (var (ix1 q)) (gamma (ix1 q)) (beta (ix1 q)) := by
  unfold k1_pay1 bnPoint
  exact congrArg₂ max
    (congrArg₂ (· + ·)
      (congrArg₂ (· * ·)
        (congrArg₂ (· - ·)
          (congrArg₂ Ideal.div (congrFun (shapeCast_self sums shapeCasts_S5000x128_S5000x128) (ix2 p q)) (count_repeated cnt p q))
          (row_repeated mean p q))
        (scale_repeated var gamma p q))
      (row_repeated beta p q))
    rfl

end Cert.KernelIdeal.BnBlock

end
-- ==== Proof.BnArray.lean ====
/-
  The second region's output array: the layer's tail of whatever the region finds in its input arrays.

  The grid has 20 points.  At point `t` the pipeline fetches rows `5000 t … 5000 t + 4999` of the summed
  messages and of the count column, and the four whole batch-norm vectors, and writes back rows
  `5000 t … 5000 t + 4999` of the output.  Entry by entry the body's result is the tail's pointwise formula at the
  array index the entry is written back to; the 20 blocks tile the 100000 rows; so the array ends holding the tail
  everywhere.  The counts arrive as a column `[100000, 1]`: the statement takes the vector `cnt` it is the column of.
-/
import proofs.«140561_j61838939128218_1_alg».proof.Proof.Gen.KernelIdeal.Frame
import proofs.«140561_j61838939128218_1_alg».proof.Proof.BnBlock
import proofs.«140561_j61838939128218_1_alg».proof.Proof.Spec
import Idealize.ShloMosaic.Lib.Pipeline.Value

set_option maxRecDepth 16384

noncomputable section

namespace Cert.KernelIdeal.BnArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps, decided over the grid: the sums, count and output windows are at block row `t`, block
    column 0; the four vector windows stay at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0
    ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- A block of the body's result is a block of the tail: if the sums block `sb` and the count block `cb` are rows
    `5000 T …` of the arrays `S` and `C`, `C` is the column of the vector `cnt`, and the four vector blocks are the
    whole vectors, then the stored entry `j` is the tail at the array index `i` that sits `5000 T` rows below `j`. -/
theorem block_is_tail (S : S100000x128.Idx → EReal) (C : S100000x1.Idx → EReal) (cnt : S100000.Idx → EReal)
    (G B M Vr : S128.Idx → EReal) (hC : ∀ r : Fin 100000, C (ix2 r (0 : Fin 1)) = cnt (ix1 r))
    (cb : Vec Ideal S5000x1 .f32) (sb : Vec Ideal S5000x128 .f32) (vb mb gb bb : Vec Ideal S128 .f32) (T : ℕ)
    (hs : ∀ (p : Fin 5000) (q : Fin 128) (i : S100000x128.Idx), (i 0).val = T * 5000 + p.val → (i 1).val = q.val → sb (ix2 p q) = S i)
    (hc : ∀ (p : Fin 5000) (i : S100000x1.Idx), (i 0).val = T * 5000 + p.val → cb (ix2 p (0 : Fin 1)) = C i)
    (hv : ∀ y, vb y = Vr y) (hm : ∀ y, mb y = M y) (hg : ∀ y, gb y = G y) (hb : ∀ y, bb y = B y)
    (j : S5000x128.Idx) (i : S100000x128.Idx) (hi0 : (i 0).val = T * 5000 + (j 0).val) (hi1 : (i 1).val = (j 1).val) :
    k1_pay1 (F := Ideal) cb sb vb mb gb bb j = bnTail S cnt G B M Vr i := by
  obtain ⟨p, q, rfl⟩ : ∃ (p : Fin 5000) (q : Fin 128), j = ix2 p q := ⟨j 0, j 1, eq_ix2 j⟩
  have hr : (⟨(i 0).val, idx2_lt0 i⟩ : Fin 100000).val = T * 5000 + p.val := hi0
  have hq : (⟨(i 1).val, idx2_lt1 i⟩ : Fin 128) = q := Fin.ext hi1
  have e1 := hs p q (ix2 ⟨(i 0).val, idx2_lt0 i⟩ q) hr rfl
  have e2 := (hc p (ix2 ⟨(i 0).val, idx2_lt0 i⟩ (0 : Fin 1)) hr).trans (hC _)
  rw [BnBlock.pay_at]
  unfold bnTail bnTailAt
  rw [hq, e1, e2, hv, hm, hg, hb]

/-- WHAT POINT `t` WRITES BACK is block `t` of the tail of the arrays as the region finds them. -/
theorem flushed_tail (c : Dev nD) (cnt : S100000.Idx → EReal)
    (hC : ∀ r : Fin 100000, V c main_v19 (ix2 r (0 : Fin 1)) = cnt (ix1 r)) (t : Fin cfg1.N) :
    (dat1 V c).flushed 6 t
      = ((cfg1.win 6).blk t).view.read (Elt Ideal)
          (bnTail (V c main_v14) cnt (V c main_arg4) (V c main_arg5) (V c main_arg6) (V c main_arg7)) := by
  show (cfg1.win 6).cut (grid1.coords t) ((dat1 V c).after 6 t) = _
  rw [after1_6]
  unfold out1_6
  rw [View.canon_unit_zero zero2]
  simp only [View.ld_unit_zero (S := S5000x128) zero2, View.ld_unit_zero (S := S5000x1) zero2, View.ld_unit_zero (S := S128) zero1]
  obtain ⟨e00, e01, e10, e11, e2, e3, e4, e5, e60, e61⟩ := index_facts t
  funext j
  show k1_pay1 (iblk1 V c 1 t) (iblk1 V c 0 t) (iblk1 V c 5 t) (iblk1 V c 4 t) (iblk1 V c 2 t) (iblk1 V c 3 t) j
    = bnTail (V c main_v14) cnt (V c main_arg4) (V c main_arg5) (V c main_arg6) (V c main_arg7) (((cfg1.win 6).blk t).view.emb j)
  refine block_is_tail (V c main_v14) (V c main_v19) cnt (V c main_arg4) (V c main_arg5) (V c main_arg6) (V c main_arg7) hC
    (iblk1 V c 1 t) (iblk1 V c 0 t) (iblk1 V c 5 t) (iblk1 V c 4 t) (iblk1 V c 2 t) (iblk1 V c 3 t) t.val ?_ ?_ ?_ ?_ ?_ ?_ j _ ?_ ?_
  · intro p q i h0 h1
    show V c main_v14 (((cfg1.win 0).blk t).view.emb (ix2 p q)) = V c main_v14 i
    refine congrArg (V c main_v14) (funext fun a => Fin.ext ?_)
    match a with
    | ⟨0, _⟩ => show win1_0.index t (0 : Fin 2) * 5000 + 1 * p.val = (i 0).val; omega
    | ⟨1, _⟩ => show win1_0.index t (1 : Fin 2) * 128 + 1 * q.val = (i 1).val; omega
  · intro p i h0
    show V c main_v19 (((cfg1.win 1).blk t).view.emb (ix2 p (0 : Fin 1))) = V c main_v19 i
    refine congrArg (V c main_v19) (funext fun a => Fin.ext ?_)
    match a with
    | ⟨0, _⟩ => show win1_1.index t (0 : Fin 2) * 5000 + 1 * p.val = (i 0).val; omega
    | ⟨1, _⟩ =>
      show win1_1.index t (1 : Fin 2) * 1 + 1 * 0 = (i 1).val
      have := idx2_lt1 i; omega
  · intro y
    show V c main_arg7 (((cfg1.win 5).blk t).view.emb y) = V c main_arg7 y
    refine congrArg (V c main_arg7) (funext fun a => Fin.ext ?_)
    match a with
    | ⟨0, _⟩ => show win1_5.index t (0 : Fin 1) * 128 + 1 * (y 0).val = (y 0).val; omega
  · intro y
    show V c main_arg6 (((cfg1.win 4).blk t).view.emb y) = V c main_arg6 y
    refine congrArg (V c main_arg6) (funext fun a => Fin.ext ?_)
    match a with
    | ⟨0, _⟩ => show win1_4.index t (0 : Fin 1) * 128 + 1 * (y 0).val = (y 0).val; omega
  · intro y
    show V c main_arg4 (((cfg1.win 2).blk t).view.emb y) = V c main_arg4 y
    refine congrArg (V c main_arg4) (funext fun a => Fin.ext ?_)
    match a with
    | ⟨0, _⟩ => show win1_2.index t (0 : Fin 1) * 128 + 1 * (y 0).val = (y 0).val; omega
  · intro y
    show V c main_arg5 (((cfg1.win 3).blk t).view.emb y) = V c main_arg5 y
    refine congrArg (V c main_arg5) (funext fun a => Fin.ext ?_)
    match a with
    | ⟨0, _⟩ => show win1_3.index t (0 : Fin 1) * 128 + 1 * (y 0).val = (y 0).val; omega
  · show win1_6.index t (0 : Fin 2) * 5000 + 1 * (j 0).val = t.val * 5000 + (j 0).val; omega
  · show win1_6.index t (1 : Fin 2) * 128 + 1 * (j 1).val = (j 1).val; omega

/-- An index of the output array is in point `t`'s block iff each coordinate is in the block's range on its axis. -/
theorem mem_block (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v20).slice (win1_6.rect t)).set ↔ _
  rw [View.set_slice_whole, Rect.mem_set_unit]
  exact Iff.rfl

/-- The 20 blocks cover the array: row `r` is in the block of point `r / 5000`. -/
theorem covered (i : S100000x128.Idx) : ∃ t : Fin cfg1.N, (cfg1.win 6).flush t = true ∧ i ∈ ((cfg1.win 6).blk t).view.set := by
  have hi0 : (i 0).val < 100000 := idx2_lt0 i
  have hi1 : (i 1).val < 128 := idx2_lt1 i
  have ht : (i 0).val / 5000 < cfg1.N := by show (i 0).val / 5000 < 20; omega
  refine ⟨⟨(i 0).val / 5000, ht⟩, flush1_6 _, ?_⟩
  rw [mem_block]
  obtain ⟨-, -, -, -, -, -, -, -, e60, e61⟩ := index_facts ⟨(i 0).val / 5000, ht⟩
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e61]; omega

/-- THE ARRAY after the region: the tail of the sums, the counts and the four vectors as the region finds them. -/
theorem tail_array (c : Dev nD) (cnt : S100000.Idx → EReal)
    (hC : ∀ r : Fin 100000, V c main_v19 (ix2 r (0 : Fin 1)) = cnt (ix1 r)) :
    (dat1 V c).arrAt 6 cfg1.N = bnTail (V c main_v14) cnt (V c main_arg4) (V c main_arg5) (V c main_arg6) (V c main_arg7) :=
  (dat1 V c).arrAt_eq_of_cover 6 _ (fun t _ => flushed_tail V c cnt hC t) (covered)

end Cert.KernelIdeal.BnArray

end
-- ==== Proof.HostMid.lean ====
/-
  Between the two regions: the message passing, as the second region finds it.

  After the first region the host gathers the projected features `h` along the edges' source nodes and adds the
  gathered rows up at the edges' target nodes (`sumsOf`), counts the edges arriving at each node (`cntOf`), and
  makes the counts a column.  These are the same operations, on the same edge list, in both programs; they are
  named here once and never opened.  The second region then finds, in the arrays of its seven windows: the sums,
  the count column, and the four batch-norm vectors exactly as launched.
-/
import proofs.«140561_j61838939128218_1_alg».proof.Proof.Gen.KernelIdeal.Frame
import Idealize.ShloMosaic.Lib.StableHlo.Run

set_option maxRecDepth 16384

noncomputable section

namespace Cert.KernelIdeal.Mid

open Idealize.ShloMosaic Idealize.ShloMosaic.TcCoe Idealize.SL.Sem Idealize.ShloMosaic.StableHlo
open Cert.KernelIdeal Cert.KernelIdeal.Gen

variable {F : FTy → Type} [FloatOps F]

/-- Row `r` of the edge list (row 0: the sources, row 1: the targets) as a vector of 1600000 node numbers. -/
def edgeRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The edges' sources, a negative number counted from the end, as a column of row numbers to gather. -/
def sources (e : (⟨S2x1600000, .i32⟩ : BufTy).Contents (Elt F)) : (⟨S1600000x1, .i32⟩ : BufTy).Contents (Elt F) :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32)))
      (edgeRow0 e))

/-- The edges' targets as a column of row numbers to add at. -/
def targets (e : (⟨S2x1600000, .i32⟩ : BufTy).Contents (Elt F)) : (⟨S1600000x1, .i32⟩ : BufTy).Contents (Elt F) :=
  broadcastInDim S1600000x1 ![0] bcast_S1600000_S1600000x1_0 (edgeRow1 e)

/-- The summed messages: the rows of `h` gathered at the edges' sources, added up at the edges' targets. -/
def sumsOf (e : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (targets e)
    (Host.gather gather_S100000x128_S1600000x1_S1600000x128_1_0_n_n_0_1_1128 h (sources e))

/-- The number of edges arriving at each node: ones added up at the edges' targets. -/
def cntOf (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (targets e)
    (broadcastInDim S1600000 ![] bcast_S_S1600000 (constant S_ .f32 0x3F800000#32))

/-- After the host stretch the sums' buffer holds `sumsOf` of the edge list and of the first region's output. -/
theorem after_sums (W : Valuation τ sig (Elt F)) :
    StableHlo.after hostOps1 W (Proc.devRef .tc main_v14)
      = sumsOf (W (Proc.devRef .tc main_arg1)) (W (Proc.devRef .tc main_v0)) := by
  after_results
  rfl

/-- After the host stretch the count column's buffer holds `cntOf` of the edge list, made a column. -/
theorem after_counts (W : Valuation τ sig (Elt F)) :
    StableHlo.after hostOps1 W (Proc.devRef .tc main_v19)
      = broadcastInDim S100000x1 ![0] bcast_S100000_S100000x1_0 (cntOf (W (Proc.devRef .tc main_arg1))) := by
  after_results
  rfl

/-- The host stretch writes no argument buffer. -/
theorem after_arg4 (W : Valuation τ sig (Elt F)) : StableHlo.after hostOps1 W (Proc.devRef .tc main_arg4) = W (Proc.devRef .tc main_arg4) := by
  after_results
theorem after_arg5 (W : Valuation τ sig (Elt F)) : StableHlo.after hostOps1 W (Proc.devRef .tc main_arg5) = W (Proc.devRef .tc main_arg5) := by
  after_results
theorem after_arg6 (W : Valuation τ sig (Elt F)) : StableHlo.after hostOps1 W (Proc.devRef .tc main_arg6) = W (Proc.devRef .tc main_arg6) := by
  after_results
theorem after_arg7 (W : Valuation τ sig (Elt F)) : StableHlo.after hostOps1 W (Proc.devRef .tc main_arg7) = W (Proc.devRef .tc main_arg7) := by
  after_results

variable (m : (ℓ : Loc nD τ sig) → Buf (Elt F) ℓ) (ρ : Dev nD → PrngReg)

/-- The edge list is no array of the first region: it is as launched when the host stretch reads it. -/
theorem edges_at_exit0 (c : Dev nD) : W1 m ρ c (Proc.devRef .tc main_arg1) = m ((c : Thread nD τ).loc main_arg1) :=
  W1_of_ne m ρ c main_arg1 (by decide)

/-- WHAT THE SECOND REGION FINDS in the array of its window 0: the summed messages of the first region's output. -/
theorem entry_sums (c : Dev nD) :
    V2 m ρ c main_v14 = sumsOf (m ((c : Thread nD τ).loc main_arg1)) ((dat0 (V0 m ρ) c).arrAt 3 cfg0.N) := by
  show StableHlo.after hostOps1 (W1 m ρ c) (Proc.devRef .tc main_v14) = _
  rw [after_sums, edges_at_exit0, W1_arr m ρ c 3]

/-- In the array of its window 1: the edge counts as a column. -/
theorem entry_counts (c : Dev nD) :
    V2 m ρ c main_v19 = broadcastInDim S100000x1 ![0] bcast_S100000_S100000x1_0 (cntOf (m ((c : Thread nD τ).loc main_arg1))) := by
  show StableHlo.after hostOps1 (W1 m ρ c) (Proc.devRef .tc main_v19) = _
  rw [after_counts, edges_at_exit0]

/-- In the arrays of its windows 2–5: the four batch-norm vectors as launched. -/
theorem entry_arg4 (c : Dev nD) : V2 m ρ c main_arg4 = m ((c : Thread nD τ).loc main_arg4) :=
  (after_arg4 (W1 m ρ c)).trans (W1_of_ne m ρ c main_arg4 (by decide))
theorem entry_arg5 (c : Dev nD) : V2 m ρ c main_arg5 = m ((c : Thread nD τ).loc main_arg5) :=
  (after_arg5 (W1 m ρ c)).trans (W1_of_ne m ρ c main_arg5 (by decide))
theorem entry_arg6 (c : Dev nD) : V2 m ρ c main_arg6 = m ((c : Thread nD τ).loc main_arg6) :=
  (after_arg6 (W1 m ρ c)).trans (W1_of_ne m ρ c main_arg6 (by decide))
theorem entry_arg7 (c : Dev nD) : V2 m ρ c main_arg7 = m ((c : Thread nD τ).loc main_arg7) :=
  (after_arg7 (W1 m ρ c)).trans (W1_of_ne m ρ c main_arg7 (by decide))

/-- The first region's input arrays are as launched when it is entered. -/
theorem entry0_arg0 (c : Dev nD) : V0 m ρ c main_arg0 = m ((c : Thread nD τ).loc main_arg0) := rfl
theorem entry0_arg2 (c : Dev nD) : V0 m ρ c main_arg2 = m ((c : Thread nD τ).loc main_arg2) := rfl
theorem entry0_arg3 (c : Dev nD) : V0 m ρ c main_arg3 = m ((c : Thread nD τ).loc main_arg3) := rfl

end Cert.KernelIdeal.Mid

end
-- ==== Proof.KernelValue.lean ====
/-
  The kernel program's result as one function of the argument arrays.

  The first region leaves the projection `linear x W b` of the launched features, weights and bias in its output
  array; the host stretch turns it into the summed messages and the edge counts; the second region leaves the tail
  `bnTail` of those and of the four launched batch-norm vectors in the result array.  Put together: on every weakly
  fair execution the result array ends holding
  `bnTail (sumsOf e (linear x W b)) (cntOf e) gamma beta mean var`, and the arguments end as launched.
-/
import proofs.«140561_j61838939128218_1_alg».proof.Proof.ResultRun
import proofs.«140561_j61838939128218_1_alg».proof.Proof.LinearArray
import proofs.«140561_j61838939128218_1_alg».proof.Proof.BnArray
import proofs.«140561_j61838939128218_1_alg».proof.Proof.HostMid
import proofs.«140561_j61838939128218_1_alg».proof.Proof.Spec

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.GcnSpec

variable (m : (ℓ : Loc nD τ sig) → Buf (Elt Ideal) ℓ) (ρ : Dev nD → PrngReg)

/-- The layer, as the kernel program computes it, of the eight argument arrays. -/
def layer (x : (⟨S100000x128, .f32⟩ : BufTy).Contents (Elt Ideal)) (e : (⟨S2x1600000, .i32⟩ : BufTy).Contents (Elt Ideal))
    (W : (⟨S128x128, .f32⟩ : BufTy).Contents (Elt Ideal)) (b gamma beta mean var : (⟨S128, .f32⟩ : BufTy).Contents (Elt Ideal)) :
    (⟨S100000x128, .f32⟩ : BufTy).Contents (Elt Ideal) :=
  bnTail (Mid.sumsOf e (linear x W b)) (Mid.cntOf e) gamma beta mean var

/-- The count column the second region finds is the column of the edge counts. -/
theorem count_column (c : Dev nD) (r : Fin 100000) :
    V2 m ρ c main_v19 (ix2 r (0 : Fin 1)) = Mid.cntOf (m ((c : Thread nD τ).loc main_arg1)) (ix1 r) := by
  rw [Mid.entry_counts]
  exact broadcastInDim_apply _ bcast_S100000_S100000x1_0 _ (ix2 r (0 : Fin 1)) (ix1 r) (fun a => match a with
    | ⟨0, _⟩ => by show r.val = if (100000 : Nat) = 1 then 0 else r.val; rw [if_neg (by decide)])

/-- THE RESULT ARRAY after the second region: the layer of the launched arguments. -/
theorem final_array (c : Dev nD) :
    (dat1 (V2 m ρ) c).arrAt 6 cfg1.N
      = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [BnArray.tail_array (V2 m ρ) c (Mid.cntOf (m ((c : Thread nD τ).loc main_arg1))) (count_column m ρ c)]
  rw [Mid.entry_sums, Mid.entry_arg4, Mid.entry_arg5, Mid.entry_arg6, Mid.entry_arg7, LinearArray.linear_array (V0 m ρ) c]
  rfl

/-- The run, read: the result array at the layer of the arguments, the arguments unchanged. -/
theorem run : θ_run defs (onTc (τ := τ) (main (F := Ideal))) ⟨m, fun _ => 0, ρ⟩ (fun r => ∀ c : Dev nD,
      r.2.mem ((c.tc : Thread nD τ).loc main_v20)
        = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final_array m ρ c), (h c).2⟩) (Result.run_result m ρ)

end Cert.KernelIdeal.KernelValue

end
-- ==== Proof.RefValue.lean ====
/-
  The reference program's result, read as the specification.

  The reference computes, on the host, the projection `x · W + b` (a `dot_general` and a broadcast add), the message
  passing (the gather and the two scatter-adds), and the tail (a divide by the clamped counts, batch norm, a maximum
  with zero).  Read index by index its projection stage is `linear` and its last stage is `bnTail` of its
  summed-messages and edge-count stages; the message passing in between is kept closed, with the projection stage
  inside it replaced by `linear`.
-/
import proofs.«140561_j61838939128218_1_alg».proof.Proof.Gen.ReferenceIdeal.Read
import proofs.«140561_j61838939128218_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.GcnSpec
open scoped BigOperators

/-- An index of the big array from its own two coordinates. -/
theorem idx_eq (i : S100000x128.Idx) : i = ix2 (⟨(i 0).val, idx2_lt0 i⟩ : Fin 100000) (⟨(i 1).val, idx2_lt1 i⟩ : Fin 128) :=
  funext fun a => Fin.ext (by match a with | ⟨0, _⟩ => rfl | ⟨1, _⟩ => rfl)

/-- The projection stage (the host's `dot_general` plus the broadcast bias) is `linear`. -/
theorem projection_eq (x0 : (⟨S100000x128, .f32⟩ : BufTy).Contents (Elt Ideal)) (x2 : (⟨S128x128, .f32⟩ : BufTy).Contents (Elt Ideal))
    (x3 : (⟨S128, .f32⟩ : BufTy).Contents (Elt Ideal)) : val_main_v3 (F := Ideal) x0 x2 x3 = linear x0 x2 x3 := by
  funext i
  have hl : ∀ k : Fin 128, lidx_main_v0 i k = ix2 (⟨(i 0).val, idx2_lt0 i⟩ : Fin 100000) k :=
    fun k => funext fun a => Fin.ext (by match a with | ⟨0, _⟩ => rfl | ⟨1, _⟩ => rfl)
  have hr : ∀ k : Fin 128, ridx_main_v0 i k = ix2 k (⟨(i 1).val, idx2_lt1 i⟩ : Fin 128) :=
    fun k => funext fun a => Fin.ext (by match a with | ⟨0, _⟩ => rfl | ⟨1, _⟩ => rfl)
  have hb : idx_main_v1 (idx_main_v2 i) = ix1 (⟨(i 1).val, idx2_lt1 i⟩ : Fin 128) :=
    funext fun a => Fin.ext (by match a with | ⟨0, _⟩ => rfl)
  rw [val_main_v3_apply, val_main_v0_apply, val_main_v2_apply, val_main_v1_apply, hb]
  unfold linear linearAt
  exact congrArg₂ (· + ·) (Finset.sum_congr rfl fun k _ => by rw [hl k, hr k]) rfl

/-- The message passing of the reference with the projected features `h` as its one open operand. -/
def sumsOf (x1 : (⟨S2x1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1 (val_main_v15 (F := Ideal)) (val_main_v16 (F := Ideal) x1)
    (Host.gather gather_S100000x128_S1600000x1_S1600000x128_1_0_n_n_0_1_1128 h (val_main_v13 (F := Ideal) x1) : FVec Ideal S1600000x128 .f32)

/-- The summed-messages stage is the message passing of `linear`. -/
theorem sums_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v17 (F := Ideal) x0 x1 x2 x3 = sumsOf x1 (linear x0 x2 x3) := by
  unfold val_main_v17 val_main_v14 sumsOf
  rw [projection_eq]

/-- THE RESULT: the last stage is `bnTail` of the summed-messages stage, the edge-count stage and the four vectors. -/
theorem tail_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 x6 x7 : (⟨S128, .f32⟩ : BufTy).Contents (Elt Ideal)) :
    val_main_v40 (F := Ideal) x0 x1 x2 x3 x4 x5 x6 x7
      = bnTail (val_main_v17 (F := Ideal) x0 x1 x2 x3) (val_main_v21 (F := Ideal) x1) x4 x5 x6 x7 := by
  funext i
  have h1 : idx_main_v24 (idx_main_v25 i) = ix1 (⟨(i 0).val, idx2_lt0 i⟩ : Fin 100000) :=
    funext fun a => Fin.ext (by match a with | ⟨0, _⟩ => rfl)
  have h2 : idx_main_v30 (idx_main_v31 i) = ix1 (⟨(i 1).val, idx2_lt1 i⟩ : Fin 128) :=
    funext fun a => Fin.ext (by match a with | ⟨0, _⟩ => rfl)
  have h3 : idx_main_v34 (idx_main_v35 i) = ix1 (⟨(i 1).val, idx2_lt1 i⟩ : Fin 128) :=
    funext fun a => Fin.ext (by match a with | ⟨0, _⟩ => rfl)
  have h4 : idx_main_v37 (idx_main_v38 i) = ix1 (⟨(i 1).val, idx2_lt1 i⟩ : Fin 128) :=
    funext fun a => Fin.ext (by match a with | ⟨0, _⟩ => rfl)
  have h5 : val_main_v17 (F := Ideal) x0 x1 x2 x3 i
      = val_main_v17 (F := Ideal) x0 x1 x2 x3 (ix2 (⟨(i 0).val, idx2_lt0 i⟩ : Fin 100000) (⟨(i 1).val, idx2_lt1 i⟩ : Fin 128)) :=
    congrArg _ (idx_eq i)
  rw [val_main_v40_apply, val_main_v39_apply, val_main_v36_apply, val_main_v32_apply, val_main_v26_apply, val_main_v25_apply,
    val_main_v24_apply, val_main_v23_apply, val_main_v22_apply, val_main_cst_3_apply, val_main_v31_apply, val_main_v30_apply,
    val_main_v35_apply, val_main_v34_apply, val_main_v33_apply, val_main_v29_apply, val_main_v28_apply, val_main_v27_apply,
    val_main_cst_4_apply, val_main_v38_apply, val_main_v37_apply, val_main_call0_v0_apply, val_main_call0_cst_apply,
    h1, h2, h3, h4, h5]
  rfl

end Cert.ReferenceIdeal.RefValue

end
-- ==== Proof.Bridge.lean ====
/-
  The two programs compute one function.

  Both programs pass the projected features through the same message passing — the same slices of the edge list,
  the same normalisation of negative node numbers, the same gather and the same two scatter-adds, operation for
  operation — so the two spellings of it are one term, and nothing about gathers or scatters is ever used.  With
  the projection on both sides read as `linear` and the tail on both sides read as `bnTail`, the reference's
  result is the kernel program's `layer` of the same eight arrays.
-/
import proofs.«140561_j61838939128218_1_alg».proof.Proof.HostMid
import proofs.«140561_j61838939128218_1_alg».proof.Proof.RefValue
import proofs.«140561_j61838939128218_1_alg».proof.Proof.KernelValue

noncomputable section

namespace Cert.Bridge

open Idealize.ShloMosaic

/-- The message passing of the reference is that of the kernel program. -/
theorem sums_same (e : (⟨Cert.KernelIdeal.S2x1600000, .i32⟩ : BufTy).Contents (Elt Ideal)) (h : (⟨Cert.KernelIdeal.S100000x128, .f32⟩ : BufTy).Contents (Elt Ideal)) :
    Cert.ReferenceIdeal.RefValue.sumsOf e h = Cert.KernelIdeal.Mid.sumsOf (F := Ideal) e h := rfl

/-- The edge counts of the reference are those of the kernel program. -/
theorem counts_same (e : (⟨Cert.KernelIdeal.S2x1600000, .i32⟩ : BufTy).Contents (Elt Ideal)) :
    Cert.ReferenceIdeal.Read.val_main_v21 (F := Ideal) e = Cert.KernelIdeal.Mid.cntOf (F := Ideal) e := rfl

/-- The reference's last stage is the kernel program's layer. -/
theorem reference_is_layer (x : (⟨Cert.KernelIdeal.S100000x128, .f32⟩ : BufTy).Contents (Elt Ideal)) (e : (⟨Cert.KernelIdeal.S2x1600000, .i32⟩ : BufTy).Contents (Elt Ideal))
    (W : (⟨Cert.KernelIdeal.S128x128, .f32⟩ : BufTy).Contents (Elt Ideal)) (b gamma beta mean var : (⟨Cert.KernelIdeal.S128, .f32⟩ : BufTy).Contents (Elt Ideal)) :
    Cert.ReferenceIdeal.Read.val_main_v40 (F := Ideal) x e W b gamma beta mean var
      = Cert.KernelIdeal.KernelValue.layer x e W b gamma beta mean var := by
  rw [Cert.ReferenceIdeal.RefValue.tail_eq, Cert.ReferenceIdeal.RefValue.sums_eq, sums_same, counts_same]
  rfl

end Cert.Bridge

end
-- ==== Proof.lean ====
/-
  The certificate: a graph-convolution layer as two pipelined kernels around a host gather / scatter-add, against
  its plain reference.

  The layer is `relu(batchnorm(mean over incoming edges of (x · W + b)))`: the node features are projected, the projected rows are
  gathered along the edges' sources and summed at the edges' targets, each node's sum is divided by its clamped edge
  count, normalised with the running statistics, and clamped below at zero.  The kernel program does the projection
  in one pipelined kernel over 20 blocks of 5000 nodes (a matrix product on bf16 operands into a zero accumulator),
  the message passing on the host, and the rest in a second pipelined kernel over the same 20 blocks; the reference
  does everything on the host.  On the extended reals the narrowing to bf16 is the identity, the blockwise matrix
  product is the host's `dot_general` index by index, and the tail is the same pointwise formula with the same three
  literals, so both programs end with `bnTail (sumsOf e (linear x W b)) (cntOf e) gamma beta mean var`.  No law of
  arithmetic beyond that is used, and the finiteness of the inputs is never opened.

  The three frame claims are the generated frames (the reference's is its generated run with the result dropped);
  the idealization rewrote nothing, so `preserves` is trivial.
-/
import proofs.«140561_j61838939128218_1_alg».proof.Defs
import proofs.«140561_j61838939128218_1_alg».proof.Proof.Gen.Kernel
import proofs.«140561_j61838939128218_1_alg».proof.Proof.Gen.Kernel.Skeleton
import proofs.«140561_j61838939128218_1_alg».proof.Proof.Gen.Kernel.Launch
import proofs.«140561_j61838939128218_1_alg».proof.Proof.Gen.Kernel.Points
import proofs.«140561_j61838939128218_1_alg».proof.Proof.Gen.Kernel.Frame
import proofs.«140561_j61838939128218_1_alg».proof.Proof.Gen.KernelIdeal
import proofs.«140561_j61838939128218_1_alg».proof.Proof.Gen.KernelIdeal.Skeleton
import proofs.«140561_j61838939128218_1_alg».proof.Proof.Gen.KernelIdeal.Launch
import proofs.«140561_j61838939128218_1_alg».proof.Proof.Gen.KernelIdeal.Points
import proofs.«140561_j61838939128218_1_alg».proof.Proof.Gen.KernelIdeal.Frame
import proofs.«140561_j61838939128218_1_alg».proof.Proof.Gen.ReferenceIdeal
import proofs.«140561_j61838939128218_1_alg».proof.Proof.Gen.ReferenceIdeal.Run
import proofs.«140561_j61838939128218_1_alg».proof.Proof.Gen.ReferenceIdeal.Read
import proofs.«140561_j61838939128218_1_alg».proof.Proof.Gen.Pre_finite_inputs
import proofs.«140561_j61838939128218_1_alg».proof.Proof.KernelValue
import proofs.«140561_j61838939128218_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, the kernel program to the layer of its arguments
    (its run, read), the reference to its last stage of its own arguments (its generated run), which is the same
    layer of the same arrays. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v40_eq, a0, a1, a2, a3, a4, a5, a6, a7]
  exact Cert.Bridge.reference_is_layer _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
